-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S25000 : Shape := ⟨1, ![25000]⟩
abbrev S1x512 : Shape := ⟨2, ![1, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S256x256 .f32) (main_arg7 : FVec F S256 .f32) (main_arg8 : FVec F S256x512 .f32) (main_arg9 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg8
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg9 main_v33

def fn {F : FTy → Type} [FloatOps F] (main_arg0 : FVec F S50000x512 .f32) (main_arg1 : IVec S2x800000 32) (main_arg2 : IVec S25000 32) (main_arg3 : FVec F S1x512 .f32) (main_arg4 : FVec F S512x256 .f32) (main_arg5 : FVec F S256 .f32) (main_arg6 : FVec F S256x256 .f32) (main_arg7 : FVec F S256 .f32) (main_arg8 : FVec F S256x512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1x512 .f32 := Host.absf main_arg3
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S50000x512 : Shape := ⟨2, ![50000, 512]⟩
abbrev S2x800000 : Shape := ⟨2, ![2, 800000]⟩
abbrev S25000 : Shape := ⟨1, ![25000]⟩
abbrev S1x512 : Shape := ⟨2, ![1, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S25000x1 : Shape := ⟨2, ![25000, 1]⟩
abbrev S25000x512 : Shape := ⟨2, ![25000, 512]⟩
abbrev S50000x256 : Shape := ⟨2, ![50000, 256]⟩
abbrev S2000x512 : Shape := ⟨2, ![2000, 512]⟩
abbrev S2000x256 : Shape := ⟨2, ![2000, 256]⟩
abbrev S800000x256 : Shape := ⟨2, ![800000, 256]⟩
abbrev S1x256 : Shape := ⟨2, ![1, 256]⟩

abbrev nBuf : Space → Nat
  | .hbm => 108
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S25000, .i32⟩
  | .hbm, ⟨3, _⟩ => ⟨S1x512, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000, .f32⟩
  | .hbm, ⟨45, _⟩ => ⟨S50000x1, .f32⟩
  | .hbm, ⟨46, _⟩ => ⟨S512, .f32⟩
  | .hbm, ⟨47, _⟩ => ⟨S_, .i32⟩
  | .hbm, ⟨48, _⟩ => ⟨S25000, .i32⟩
  | .hbm, ⟨49, _⟩ => ⟨S25000, .i1⟩
  | .hbm, ⟨50, _⟩ => ⟨S_, .i32⟩
  | .hbm, ⟨51, _⟩ => ⟨S25000, .i32⟩
  | .hbm, ⟨52, _⟩ => ⟨S25000, .i32⟩
  | .hbm, ⟨53, _⟩ => ⟨S25000, .i32⟩
  | .hbm, ⟨54, _⟩ => ⟨S25000x1, .i32⟩
  | .hbm, ⟨55, _⟩ => ⟨S25000x512, .f32⟩
  | .hbm, ⟨56, _⟩ => ⟨S50000x512, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S800000x256, .f32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x256, .f32⟩
  | .hbm, ⟨89, _⟩ => ⟨S800000x256, .f32⟩
  | .hbm, ⟨90, _⟩ => ⟨S800000x256, .f32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x256, .f32⟩
  | .hbm, ⟨101, _⟩ => ⟨S_, .f32⟩
  | .hbm, ⟨102, _⟩ => ⟨S50000x256, .f32⟩
  | .hbm, ⟨103, _⟩ => ⟨S50000x256, .f32⟩
  | .hbm, ⟨104, _⟩ => ⟨S50000x512, .f32⟩
  | .hbm, ⟨105, _⟩ => ⟨S1x512, .f32⟩
  | .hbm, ⟨106, _⟩ => ⟨S50000x512, .f32⟩
  | .hbm, ⟨107, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x512, .f32⟩
  | .local _ .vmem, ⟨13, _⟩ => ⟨S2000x512, .f32⟩
  | .local _ .vmem, ⟨14, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call0_cst : Ref sig .tc := ⟨.hbm, 101, rfl⟩
abbrev main_call0_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S1x512_S512 : S1x512.ShapeCasts S512
  bcast_S_S25000 : S_.BroadcastsInDim S25000 (![] : Fin 0 → Fin S25000.rank)
  bcast_S25000_S25000x1_0 : S25000.BroadcastsInDim S25000x1 (![0] : Fin 1 → Fin S25000x1.rank)
  bcast_S512_S25000x512_1 : S512.BroadcastsInDim S25000x512 (![1] : Fin 1 → Fin S25000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  scatter_S50000x512_S25000x1_S25000x512_1_0_0_1_wf : ScatterDims.WF S50000x512 S25000x1 S25000x512 [1] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x512_S25000x1_S25000x512_1_0_0_1 : ScatterDims S50000x512 S25000x1 S25000x512 where
  updateWindowDims := [1]
  insertedWindowDims := [0]
  scatterDimsToOperandDims := [0]
  indexVectorDim := 1
  wf := scatter_S50000x512_S25000x1_S25000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v37) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S25000 : Shape := ⟨1, ![25000]⟩
abbrev S1x512 : Shape := ⟨2, ![1, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S25000x1 : Shape := ⟨2, ![25000, 1]⟩
abbrev S25000x512 : Shape := ⟨2, ![25000, 512]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 130
  | .vmem => 0
  | .smem => 0
  | _ => 0

abbrev hbmTy0_0 (i : Nat) : BufTy := match i % 128 with
  | 0 => ⟨S50000x512, .f32⟩
  | 1 => ⟨S2x800000, .i32⟩
  | 2 => ⟨S25000, .i32⟩
  | 3 => ⟨S1x512, .f32⟩
  | 4 => ⟨S512x256, .f32⟩
  | 5 => ⟨S256, .f32⟩
  | 6 => ⟨S256x256, .f32⟩
  | 7 => ⟨S256, .f32⟩
  | 8 => ⟨S256x512, .f32⟩
  | 9 => ⟨S512, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S512, .f32⟩
  | 25 => ⟨S_, .i32⟩
  | 26 => ⟨S25000, .i32⟩
  | 27 => ⟨S25000, .i1⟩
  | 28 => ⟨S_, .i32⟩
  | 29 => ⟨S25000, .i32⟩
  | 30 => ⟨S25000, .i32⟩
  | 31 => ⟨S25000, .i32⟩
  | 32 => ⟨S25000x1, .i32⟩
  | 33 => ⟨S25000x512, .f32⟩
  | 34 => ⟨S50000x512, .f32⟩
  | 35 => ⟨S50000x256, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S800000x256, .f32⟩
  | 66 => ⟨S800000x256, .f32⟩
  | 67 => ⟨S_, .f32⟩
  | 68 => ⟨S50000x256, .f32⟩
  | 69 => ⟨S800000x1, .i32⟩
  | 70 => ⟨S50000x256, .f32⟩
  | 71 => ⟨S50000, .f32⟩
  | 72 => ⟨S50000x1, .f32⟩
  | 73 => ⟨S50000x256, .f32⟩
  | 74 => ⟨S50000x256, .f32⟩
  | 75 => ⟨S50000x256, .f32⟩
  | 76 => ⟨S1x256, .f32⟩
  | 77 => ⟨S50000x256, .f32⟩
  | 78 => ⟨S50000x256, .f32⟩
  | 79 => ⟨S50000x256, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S50000, .f32⟩
  | 116 => ⟨S50000x1, .f32⟩
  | 117 => ⟨S50000x256, .f32⟩
  | 118 => ⟨S50000x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x512, .f32⟩
  | 127 => ⟨S1x512, .f32⟩
  | _ => ⟨S50000x512, .f32⟩

abbrev hbmTy0_1 (i : Nat) : BufTy := match i % 128 with
  | 0 => ⟨S50000x512, .f32⟩
  | 1 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_call0_cst : Ref sig .tc := ⟨.hbm, 123, rfl⟩
abbrev main_call0_v0 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S1x512_S512 : S1x512.ShapeCasts S512
  bcast_S_S25000 : S_.BroadcastsInDim S25000 (![] : Fin 0 → Fin S25000.rank)
  bcast_S25000_S25000x1_0 : S25000.BroadcastsInDim S25000x1 (![0] : Fin 1 → Fin S25000x1.rank)
  bcast_S512_S25000x512_1 : S512.BroadcastsInDim S25000x512 (![1] : Fin 1 → Fin S25000x512.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S800000x1_S800000_n_0_0_1_wf : ScatterDims.WF S50000 S800000x1 S800000 [] [0] [0] 1
  scatter_S50000x512_S25000x1_S25000x512_1_0_0_1_wf : ScatterDims.WF S50000x512 S25000x1 S25000x512 [1] [0] [0] 1
  dot_S50000x512_S512x256_S50000x256_1_0_0_1_n_n_wf : DotDims.WF S50000x512 S512x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x512_S50000x512_1_0_0_1_n_n_wf : DotDims.WF S50000x256 S256x512 S50000x512 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x512_S25000x1_S25000x512_1_0_0_1 : ScatterDims S50000x512 S25000x1 S25000x512 where
  updateWindowDims := [1]
  insertedWindowDims := [0]
  scatterDimsToOperandDims := [0]
  indexVectorDim := 1
  wf := scatter_S50000x512_S25000x1_S25000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.KernelRun.lean ====
/-
  The idealized kernel's run with its result named.

  The program is eight segments: four stretches of host operations around and between three regions. The buffers'
  contents at each boundary are a fold from the launch memory: a stretch applies its operations, a region replaces
  its result array by what its write-backs leave. The run ends with every unscoped buffer at the last boundary's
  contents, so the result buffer holds the last stretch's sum read there, and the arguments hold what they were
  launched with.
-/
import proofs.«107475_j17093969838150_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, without a fault, with every unscoped buffer of every core at the contents the
    fold through the eight segments gives it: the launch over the segments, the last thread state read against the
    final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run, read at the result and at the arguments: the result buffer ends at the last boundary's contents, each
    argument as launched (no host operation and no region writes one). -/
theorem run_result : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v80 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩)
    (run_all m ρ)

end Cert.KernelIdeal.Run

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibMatProduct.lean ====
/-
  The product of an [M, K] matrix with a [K, N] matrix as ONE array over the exact extended reals:
  entry (p, q) is the sum over k of A (p, k) * B (k, q).

  Two operations are this array. A host dot_general with plain dimension numbers (no batch axis, the left
  operand contracting its second axis, the right operand its first) is it outright. A matrix-unit product
  of a block of rows of A with the whole of B, taken into the zero accumulator, is the product's entries
  on those rows: the rows of a product depend on the same rows of the left operand only, so a product
  computed a block of rows at a time is the whole product, whatever the block height.
-/
import Idealize.ShloMosaic.PureOps.Ideal.Laws
import Idealize.ShloMosaic.Lib.ValueIdx
import proofs.«107475_j17093969838150_1_alg».proof.Proof.LibPlainMatmul

noncomputable section

namespace Cert.SE.Lib

open Idealize.ShloMosaic Idealize.ShloMosaic.ValueIdx

variable {M K N : Nat}

/-- The matrix product as an array: entry (p, q) is the sum over k of A (p, k) * B (k, q). -/
def matProd (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- Its entry at coordinates (p, q). -/
theorem matProd_apply (A : (⟨2, ![M, K]⟩ : Shape).Idx → EReal) (B : (⟨2, ![K, N]⟩ : Shape).Idx → EReal)
    (p : Fin M) (q : Fin N) : matProd A B (ix2 p q) = ∑ k : Fin K, A (ix2 p k) * B (ix2 k q) := rfl

/-- A host dot_general with plain dimension numbers is the matrix product. -/
theorem hostDot_eq_matProd {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂) :
    Host.dotGeneral d prec A B = matProd A B := by
  funext i
  obtain ⟨p, q, rfl⟩ : ∃ (p : Fin M) (q : Fin N), i = ix2 p q := ⟨i 0, i 1, eq_ix2 i⟩
  have hr : d.contr.rank = 1 := contr_rank_plain d hlc
  have hs : d.contr.size ⟨0, by omega⟩ = K := contr_size_plain d hlc _
  refine (Ideal.dotGeneral_apply d prec .single A B (ix2 p q)).trans ?_
  rw [matProd_apply, ← Equiv.sum_comp (contrEquiv1 d K hr hs).symm]
  refine Finset.sum_congr rfl fun k _ => ?_
  rw [lhsIdx_plain d hlb hln hlc hr hs p q k, rhsIdx_plain d hlb hln hrb hrn hrc hr hs p q k]

/-- A matrix-unit product of R rows with the whole right operand, into the zero accumulator, read at (p, q):
    when row p of the block is row r of A (`hA`) and the right block is B (`hB`), the entry is the product's
    entry (r, q). -/
theorem matmul_rows_eq_matProd {R : Nat} {φ₁ φ₂ : FTy} (d : DotDims ⟨2, ![R, K]⟩ ⟨2, ![K, N]⟩ ⟨2, ![R, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (a : FVec Ideal ⟨2, ![R, K]⟩ φ₁) (b : FVec Ideal ⟨2, ![K, N]⟩ φ₂)
    (A : (⟨2, ![M, K]⟩ : Shape).Idx → EReal) (B : (⟨2, ![K, N]⟩ : Shape).Idx → EReal)
    (p : Fin R) (q : Fin N) (r : Fin M)
    (hA : ∀ k : Fin K, a (ix2 p k) = A (ix2 r k)) (hB : ∀ k : Fin K, b (ix2 k q) = B (ix2 k q)) :
    matmul d prec a b (constant (F := Ideal) ⟨2, ![R, N]⟩ .f32 0x00000000#32) (ix2 p q) = matProd A B (ix2 r q) := by
  rw [matmul_plain_apply d hlb hln hlc hrb hrn hrc prec a b p q, matProd_apply]
  exact Finset.sum_congr rfl fun k _ => by rw [hA k, hB k]

end Cert.SE.Lib

end
-- ==== Proof.RegionProducts.lean ====
/-
  Each of the three matrix products as one array.

  A region multiplies an [50000, K] array by a [K, N] matrix 2000 rows at a grid point: point t loads block row t of
  the left array and the whole right matrix, and stores the product of the two blocks as block row t of the result.
  A row of a matrix product depends on the same row of the left factor only, so block row t of the result is block
  row t of the product of the whole arrays, and the 25 block rows fill the result. Hence, whatever the buffers hold
  when the region is entered, the result array after the region is the product of the two operand arrays, entry
  (r, q) the sum over k of A (r, k) * B (k, q) on the extended reals.
-/
import proofs.«107475_j17093969838150_1_alg».proof.Proof.Gen.KernelIdeal.Frame
import proofs.«107475_j17093969838150_1_alg».proof.Proof.LibMatProduct
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Products

open Cert.KernelIdeal Cert.KernelIdeal.Gen Cert.SE.Lib

/- The buffers' contents when a region is entered: every statement below holds for any such contents. -/
variable (V : (c : Dev nD) → (b : Ref sig .tc) → Buf (Elt Ideal) ((c : Thread nD τ).loc b))

theorem hz : (![0, 0] : Fin 2 → Nat) = fun _ => 0 := funext fun a => by fin_cases a <;> rfl

/-! ## The first product: [50000, 512] by [512, 256], 2000 rows at a grid point -/

/-- The body's one stored value at an entry. Both operands pass through a change of float format, which is the
    identity on extended reals, and the left one through a cast to its own shape; what is left is a matrix-unit
    product into the zero accumulator. So when row `j 0` of the left block is row `i 0` of an array `A`, the right
    block is `B`, and `i`, `j` name the same column, the entry is the product's entry `i`. -/
theorem pay0 (x0 : Vec Ideal S2000x512 .f32) (x1 : Vec Ideal S512x256 .f32)
    (A : S50000x512.Idx → EReal) (B : S512x256.Idx → EReal) (j : S2000x256.Idx) (i : S50000x256.Idx)
    (hq : (i 1).val = (j 1).val)
    (hA : ∀ k : Fin 512, x0 (ix2 (j 0) k) = A (ix2 (i 0) k))
    (hB : ∀ k : Fin 512, x1 (ix2 k (j 1)) = B (ix2 k (i 1))) :
    k0_pay1 x0 x1 j = matProd A B i := by
  obtain ⟨p, q, rfl⟩ : ∃ (p : Fin 2000) (q : Fin 256), j = ix2 p q := ⟨j 0, j 1, eq_ix2 j⟩
  obtain ⟨r, q', rfl⟩ : ∃ (r : Fin 50000) (q' : Fin 256), i = ix2 r q' := ⟨i 0, i 1, eq_ix2 i⟩
  obtain rfl : q' = q := Fin.ext hq
  unfold k0_pay1
  exact matmul_rows_eq_matProd dot_S2000x512_S512x256_S2000x256_1_0_0_1_n_n rfl rfl rfl rfl rfl rfl none _ _ A B p q' r
    (fun k => by rw [truncf_apply, shapeCast_self]; exact hA k) (fun k => hB k)

/-- The printed index maps over the grid: at point `t` the left operand's block and the result's block are block row
    `t`, and the right operand's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block row `t` of the product of the two operand arrays as the region finds them:
    entry (p, q) of the block is the product's entry (2000 t + p, q), which depends on row 2000 t + p of the left
    array only, and that row is row p of the left operand's block at `t`. -/
theorem flushed0 (c : Dev nD) (t : Fin cfg0.N) :
    (dat0 V c).flushed 2 t = ((cfg0.win 2).blk t).view.read (Elt Ideal) (matProd (V c main_v37) (V c main_arg4)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts0 t
  funext j
  show k0_pay1 (iblk0 V c 0 t) (iblk0 V c 1 t) j = matProd (V c main_v37) (V c main_arg4) (((cfg0.win 2).blk t).view.emb j)
  refine pay0 (iblk0 V c 0 t) (iblk0 V c 1 t) (V c main_v37) (V c main_arg4) j (((cfg0.win 2).blk t).view.emb j) ?_ ?_ ?_
  · show win0_2.index t (1 : Fin 2) * 256 + 1 * (j 1).val = (j 1).val
    omega
  · intro k
    unfold iblk0
    rw [View.read_apply]
    show V c main_v37 (((cfg0.win 0).blk t).view.emb (ix2 (j 0) k)) = V c main_v37 (ix2 ((((cfg0.win 2).blk t).view.emb j) 0) k)
    congr 1
    funext a
    apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · intro k
    unfold iblk0
    rw [View.read_apply]
    show V c main_arg4 (((cfg0.win 1).blk t).view.emb (ix2 k (j 1))) = V c main_arg4 (ix2 k ((((cfg0.win 2).blk t).view.emb j) 1))
    congr 1
    funext a
    apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the result array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v38).slice (win0_2.rect t)).set ↔ _
  rw [View.set_slice_whole, Rect.mem_set_unit]
  exact Iff.rfl

/-- Every row of the result array is written: row r by the point r / 2000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    omega

/-- The result array after the region is the whole product of the two operand arrays as the region finds them. -/
theorem arr0 (c : Dev nD) : (dat0 V c).arrAt 2 cfg0.N = matProd (V c main_v37) (V c main_arg4) :=
  (dat0 V c).arrAt_eq_of_cover 2 (matProd (V c main_v37) (V c main_arg4)) (fun t _ => flushed0 V c t) (cover0)

/-! ## The second product: [50000, 256] by [256, 256], 2000 rows at a grid point -/

/-- The body's one stored value at an entry. Both operands pass through a change of float format, which is the
    identity on extended reals, and the left one through a cast to its own shape; what is left is a matrix-unit
    product into the zero accumulator. So when row `j 0` of the left block is row `i 0` of an array `A`, the right
    block is `B`, and `i`, `j` name the same column, the entry is the product's entry `i`. -/
theorem pay1 (x0 : Vec Ideal S2000x256 .f32) (x1 : Vec Ideal S256x256 .f32)
    (A : S50000x256.Idx → EReal) (B : S256x256.Idx → EReal) (j : S2000x256.Idx) (i : S50000x256.Idx)
    (hq : (i 1).val = (j 1).val)
    (hA : ∀ k : Fin 256, x0 (ix2 (j 0) k) = A (ix2 (i 0) k))
    (hB : ∀ k : Fin 256, x1 (ix2 k (j 1)) = B (ix2 k (i 1))) :
    k1_pay1 x0 x1 j = matProd A B i := by
  obtain ⟨p, q, rfl⟩ : ∃ (p : Fin 2000) (q : Fin 256), j = ix2 p q := ⟨j 0, j 1, eq_ix2 j⟩
  obtain ⟨r, q', rfl⟩ : ∃ (r : Fin 50000) (q' : Fin 256), i = ix2 r q' := ⟨i 0, i 1, eq_ix2 i⟩
  obtain rfl : q' = q := Fin.ext hq
  unfold k1_pay1
  exact matmul_rows_eq_matProd dot_S2000x256_S256x256_S2000x256_1_0_0_1_n_n rfl rfl rfl rfl rfl rfl none _ _ A B p q' r
    (fun k => by rw [truncf_apply, shapeCast_self]; exact hA k) (fun k => hB k)

/-- The printed index maps over the grid: at point `t` the left operand's block and the result's block are block row
    `t`, and the right operand's block is the whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block row `t` of the product of the two operand arrays as the region finds them:
    entry (p, q) of the block is the product's entry (2000 t + p, q), which depends on row 2000 t + p of the left
    array only, and that row is row p of the left operand's block at `t`. -/
theorem flushed1 (c : Dev nD) (t : Fin cfg1.N) :
    (dat1 V c).flushed 2 t = ((cfg1.win 2).blk t).view.read (Elt Ideal) (matProd (V c main_v56) (V c main_arg6)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts1 t
  funext j
  show k1_pay1 (iblk1 V c 0 t) (iblk1 V c 1 t) j = matProd (V c main_v56) (V c main_arg6) (((cfg1.win 2).blk t).view.emb j)
  refine pay1 (iblk1 V c 0 t) (iblk1 V c 1 t) (V c main_v56) (V c main_arg6) j (((cfg1.win 2).blk t).view.emb j) ?_ ?_ ?_
  · show win1_2.index t (1 : Fin 2) * 256 + 1 * (j 1).val = (j 1).val
    omega
  · intro k
    unfold iblk1
    rw [View.read_apply]
    show V c main_v56 (((cfg1.win 0).blk t).view.emb (ix2 (j 0) k)) = V c main_v56 (ix2 ((((cfg1.win 2).blk t).view.emb j) 0) k)
    congr 1
    funext a
    apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · intro k
    unfold iblk1
    rw [View.read_apply]
    show V c main_arg6 (((cfg1.win 1).blk t).view.emb (ix2 k (j 1))) = V c main_arg6 (ix2 k ((((cfg1.win 2).blk t).view.emb j) 1))
    congr 1
    funext a
    apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the result array is in point `t`'s block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v57).slice (win1_2.rect t)).set ↔ _
  rw [View.set_slice_whole, Rect.mem_set_unit]
  exact Iff.rfl

/-- Every row of the result array is written: row r by the point r / 2000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, e4, e5⟩ := idx_facts1 ⟨(i 0).val / 2000, ht⟩
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 256 ≤ (i 1).val ∧ (i 1).val < win1_2.index ⟨(i 0).val / 2000, ht⟩ (1 : Fin 2) * 256 + 256
    omega

/-- The result array after the region is the whole product of the two operand arrays as the region finds them. -/
theorem arr1 (c : Dev nD) : (dat1 V c).arrAt 2 cfg1.N = matProd (V c main_v56) (V c main_arg6) :=
  (dat1 V c).arrAt_eq_of_cover 2 (matProd (V c main_v56) (V c main_arg6)) (fun t _ => flushed1 V c t) (cover1)

/-! ## The third product: [50000, 256] by [256, 512], 2000 rows at a grid point -/

/-- The body's one stored value at an entry. Both operands pass through a change of float format, which is the
    identity on extended reals, and the left one through a cast to its own shape; what is left is a matrix-unit
    product into the zero accumulator. So when row `j 0` of the left block is row `i 0` of an array `A`, the right
    block is `B`, and `i`, `j` name the same column, the entry is the product's entry `i`. -/
theorem pay2 (x0 : Vec Ideal S2000x256 .f32) (x1 : Vec Ideal S256x512 .f32)
    (A : S50000x256.Idx → EReal) (B : S256x512.Idx → EReal) (j : S2000x512.Idx) (i : S50000x512.Idx)
    (hq : (i 1).val = (j 1).val)
    (hA : ∀ k : Fin 256, x0 (ix2 (j 0) k) = A (ix2 (i 0) k))
    (hB : ∀ k : Fin 256, x1 (ix2 k (j 1)) = B (ix2 k (i 1))) :
    k2_pay1 x0 x1 j = matProd A B i := by
  obtain ⟨p, q, rfl⟩ : ∃ (p : Fin 2000) (q : Fin 512), j = ix2 p q := ⟨j 0, j 1, eq_ix2 j⟩
  obtain ⟨r, q', rfl⟩ : ∃ (r : Fin 50000) (q' : Fin 512), i = ix2 r q' := ⟨i 0, i 1, eq_ix2 i⟩
  obtain rfl : q' = q := Fin.ext hq
  unfold k2_pay1
  exact matmul_rows_eq_matProd dot_S2000x256_S256x512_S2000x512_1_0_0_1_n_n rfl rfl rfl rfl rfl rfl none _ _ A B p q' r
    (fun k => by rw [truncf_apply, shapeCast_self]; exact hA k) (fun k => hB k)

/-- The printed index maps over the grid: at point `t` the left operand's block and the result's block are block row
    `t`, and the right operand's block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block row `t` of the product of the two operand arrays as the region finds them:
    entry (p, q) of the block is the product's entry (2000 t + p, q), which depends on row 2000 t + p of the left
    array only, and that row is row p of the left operand's block at `t`. -/
theorem flushed2 (c : Dev nD) (t : Fin cfg2.N) :
    (dat2 V c).flushed 2 t = ((cfg2.win 2).blk t).view.read (Elt Ideal) (matProd (V c main_v76) (V c main_arg8)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x512) hz]
  obtain ⟨e0, e1, e2, e3, e4, e5⟩ := idx_facts2 t
  funext j
  show k2_pay1 (iblk2 V c 0 t) (iblk2 V c 1 t) j = matProd (V c main_v76) (V c main_arg8) (((cfg2.win 2).blk t).view.emb j)
  refine pay2 (iblk2 V c 0 t) (iblk2 V c 1 t) (V c main_v76) (V c main_arg8) j (((cfg2.win 2).blk t).view.emb j) ?_ ?_ ?_
  · show win2_2.index t (1 : Fin 2) * 512 + 1 * (j 1).val = (j 1).val
    omega
  · intro k
    unfold iblk2
    rw [View.read_apply]
    show V c main_v76 (((cfg2.win 0).blk t).view.emb (ix2 (j 0) k)) = V c main_v76 (ix2 ((((cfg2.win 2).blk t).view.emb j) 0) k)
    congr 1
    funext a
    apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · intro k
    unfold iblk2
    rw [View.read_apply]
    show V c main_arg8 (((cfg2.win 1).blk t).view.emb (ix2 k (j 1))) = V c main_arg8 (ix2 k ((((cfg2.win 2).blk t).view.emb j) 1))
    congr 1
    funext a
    apply Fin.ext
    match a with
    | ⟨0, _⟩ => show win2_1.index t (0 : Fin 2) * 256 + 1 * k.val = k.val; omega
    | ⟨1, _⟩ => show win2_1.index t (1 : Fin 2) * 512 + 1 * (j 1).val = win2_2.index t (1 : Fin 2) * 512 + 1 * (j 1).val; omega

/-- An index of the result array is in point `t`'s block iff each coordinate is in the block's range on its axis. -/
theorem mem_blk2 (t : Fin cfg2.N) (i : S50000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v77).slice (win2_2.rect t)).set ↔ _
  rw [View.set_slice_whole, Rect.mem_set_unit]
  exact Iff.rfl

/-- Every row of the result array is written: row r by the point r / 2000. -/
theorem cover2 (i : S50000x512.Idx) :
    ∃ t : Fin cfg2.N, (cfg2.win 2).flush t = true ∧ i ∈ ((cfg2.win 2).blk t).view.set := by
  have hi0 : (i 0).val < 50000 := (i 0).isLt
  have hi1 : (i 1).val < 512 := (i 1).isLt
  have hN : cfg2.N = 25 := N_2
  have ht : (i 0).val / 2000 < cfg2.N := by rw [hN]; omega
  obtain ⟨-, -, -, -, e4, e5⟩ := idx_facts2 ⟨(i 0).val / 2000, ht⟩
  refine ⟨⟨(i 0).val / 2000, ht⟩, flush2_2 _, ?_⟩
  rw [mem_blk2]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 512 ≤ (i 1).val ∧ (i 1).val < win2_2.index ⟨(i 0).val / 2000, ht⟩ (1 : Fin 2) * 512 + 512
    omega

/-- The result array after the region is the whole product of the two operand arrays as the region finds them. -/
theorem arr2 (c : Dev nD) : (dat2 V c).arrAt 2 cfg2.N = matProd (V c main_v76) (V c main_arg8) :=
  (dat2 V c).arrAt_eq_of_cover 2 (matProd (V c main_v76) (V c main_arg8)) (fun t _ => flushed2 V c t) (cover2)

end Cert.KernelIdeal.Products

end
-- ==== Proof.LibTRefRoundTrip.lean ====
/-
  A host line inside a called function writes its value to a typed buffer, and the next line reads it back at the
  same type. Each of the two steps transports the value along the buffer's type equation, in opposite directions, so
  together they are the identity: `x.ofBuf (x.toBuf v) = v` for every typed reference `x` and every value `v` of its
  type. Rewriting with it removes every write-then-read pair from the composed value of a chain of such lines,
  leaving the plain composition of the lines' operations.
-/
import Idealize.ShloMosaic.Lib.StableHlo

namespace Cert.LibTRefRoundTrip

open Idealize.ShloMosaic

/-- A value written to a typed buffer and read back at the same type is itself: the two transports along the
    buffer's type equation cancel. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

end Cert.LibTRefRoundTrip
-- ==== Proof.Boundaries.lean ====
/-
  The buffers' contents at each boundary of the idealized kernel's run, as the reference's stages of the arguments.

  The two programs apply the same host operations in the same order to the same arguments, except that the kernel
  computes each of its three matrix products in a region, 2000 rows at a grid point, where the reference has one
  host product, and that the kernel computes the edge coefficients and the self-loop coefficients once where the
  reference computes them once per layer (the same operations of the same edge list both times). So boundary by
  boundary each buffer the kernel goes on to read holds the reference's stage of the launch arguments: the host
  stretches are the reference's operations read back, a region's result is the whole product of its operand
  arrays, which is what the host product is on the extended reals, and a buffer that a stretch or a region does not
  write keeps its contents.
-/
import proofs.«107475_j17093969838150_1_alg».proof.Proof.Gen.KernelIdeal.Frame
import proofs.«107475_j17093969838150_1_alg».proof.Proof.Gen.ReferenceIdeal.Read
import proofs.«107475_j17093969838150_1_alg».proof.Proof.RegionProducts
import proofs.«107475_j17093969838150_1_alg».proof.Proof.LibMatProduct
import proofs.«107475_j17093969838150_1_alg».proof.Proof.LibTRefRoundTrip
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen Cert.SE.Lib Cert.ReferenceIdeal.Read

/-- A buffer that no operation of a stretch writes keeps its contents across the stretch: the stretch's operations
    write the buffers named in its list, none of which is the buffer asked about. -/
macro "unwritten" : tactic => `(tactic| (
  refine StableHlo.after_of_forall_not_mem _ _ (List.forall_iff_forall_mem.mp ?_)
  simp only [hostOps0, hostOps1, hostOps2, hostOps2_1, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The edge coefficients are the same operations of the edge list in both layers of the reference, -/
theorem coef_eq (x1 : (⟨Cert.ReferenceIdeal.S2x800000, .i32⟩ : BufTy).Contents (Elt Ideal)) :
    val_main_v36 (F := Ideal) x1 = val_main_v73 (F := Ideal) x1 := rfl

/-- and so are the self-loop coefficients. -/
theorem self_eq (x1 : (⟨Cert.ReferenceIdeal.S2x800000, .i32⟩ : BufTy).Contents (Elt Ideal)) :
    val_main_v50 (F := Ideal) x1 = val_main_v87 (F := Ideal) x1 := rfl

variable (m : (ℓ : Loc nD τ sig) → Buf (Elt Ideal) ℓ) (ρ : Dev nD → PrngReg) (c : Dev nD)

/-! ## Before the first region: the edge list's columns, the coefficients, the masked input -/

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem W1_v26 : W1 m ρ c (Proc.devRef .tc main_v26) = val_main_v36 (F := Ideal) (m ((c : Thread nD τ).loc main_arg1)) := by
  show StableHlo.after hostOps0 (W0 m ρ c) (Proc.devRef .tc main_v26) = _
  after_results_simp
  rfl

theorem W1_v28 : W1 m ρ c (Proc.devRef .tc main_v28) = val_main_v50 (F := Ideal) (m ((c : Thread nD τ).loc main_arg1)) := by
  show StableHlo.after hostOps0 (W0 m ρ c) (Proc.devRef .tc main_v28) = _
  after_results_simp
  rfl

theorem W1_v37 : W1 m ρ c (Proc.devRef .tc main_v37) = val_main_v19 (F := Ideal) (m ((c : Thread nD τ).loc main_arg0)) (m ((c : Thread nD τ).loc main_arg2)) (m ((c : Thread nD τ).loc main_arg3)) := by
  show StableHlo.after hostOps0 (W0 m ρ c) (Proc.devRef .tc main_v37) = _
  after_results_simp
  rfl

theorem W1_arg4 : W1 m ρ c (Proc.devRef .tc main_arg4) = (m ((c : Thread nD τ).loc main_arg4)) :=
  (by unwritten : W1 m ρ c (Proc.devRef .tc main_arg4) = W0 m ρ c (Proc.devRef .tc main_arg4)).trans rfl

theorem W1_arg5 : W1 m ρ c (Proc.devRef .tc main_arg5) = (m ((c : Thread nD τ).loc main_arg5)) :=
  (by unwritten : W1 m ρ c (Proc.devRef .tc main_arg5) = W0 m ρ c (Proc.devRef .tc main_arg5)).trans rfl

theorem W1_arg6 : W1 m ρ c (Proc.devRef .tc main_arg6) = (m ((c : Thread nD τ).loc main_arg6)) :=
  (by unwritten : W1 m ρ c (Proc.devRef .tc main_arg6) = W0 m ρ c (Proc.devRef .tc main_arg6)).trans rfl

theorem W1_arg7 : W1 m ρ c (Proc.devRef .tc main_arg7) = (m ((c : Thread nD τ).loc main_arg7)) :=
  (by unwritten : W1 m ρ c (Proc.devRef .tc main_arg7) = W0 m ρ c (Proc.devRef .tc main_arg7)).trans rfl

theorem W1_arg8 : W1 m ρ c (Proc.devRef .tc main_arg8) = (m ((c : Thread nD τ).loc main_arg8)) :=
  (by unwritten : W1 m ρ c (Proc.devRef .tc main_arg8) = W0 m ρ c (Proc.devRef .tc main_arg8)).trans rfl

theorem W1_arg9 : W1 m ρ c (Proc.devRef .tc main_arg9) = (m ((c : Thread nD τ).loc main_arg9)) :=
  (by unwritten : W1 m ρ c (Proc.devRef .tc main_arg9) = W0 m ρ c (Proc.devRef .tc main_arg9)).trans rfl

/-! ## The first region: the encoder's product -/

theorem W2_v38 : W2 m ρ c (Proc.devRef .tc main_v38) = val_main_v20 (F := Ideal) (m ((c : Thread nD τ).loc main_arg0)) (m ((c : Thread nD τ).loc main_arg2)) (m ((c : Thread nD τ).loc main_arg3)) (m ((c : Thread nD τ).loc main_arg4)) := by
  rw [show W2 m ρ c (Proc.devRef .tc main_v38) = (dat0 (V1 m ρ) c).arrAt 2 cfg0.N from W2_arr m ρ c 2, Products.arr0 (V1 m ρ) c]
  show matProd (W1 m ρ c (Proc.devRef .tc main_v37)) (W1 m ρ c (Proc.devRef .tc main_arg4)) = _
  rw [W1_v37, W1_arg4]
  unfold val_main_v20
  exact (hostDot_eq_matProd _ rfl rfl rfl rfl rfl rfl none _ _).symm

theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_v26 : W2 m ρ c (Proc.devRef .tc main_v26) = val_main_v36 (F := Ideal) (m ((c : Thread nD τ).loc main_arg1)) :=
  (W2_of_ne m ρ c main_v26 (by decide)).trans (W1_v26 m ρ c)
theorem W2_v28 : W2 m ρ c (Proc.devRef .tc main_v28) = val_main_v50 (F := Ideal) (m ((c : Thread nD τ).loc main_arg1)) :=
  (W2_of_ne m ρ c main_v28 (by decide)).trans (W1_v28 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)

/-! ## The encoder's aggregation: gather along the edges, scale, scatter-add, the self-loop term, the bias -/

theorem W3_v56 : W3 m ρ c (Proc.devRef .tc main_v56) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v56) = _
  after_results_simp
  rw [W2_v38, W2_v1, W2_v3, W2_v26, W2_v28, W2_arg5]
  rfl

theorem W3_v1 : W3 m ρ c (Proc.devRef .tc main_v1) = val_main_v1 (F := Ideal) (m ((c : Thread nD τ).loc main_arg1)) :=
  (by unwritten : W3 m ρ c (Proc.devRef .tc main_v1) = W2 m ρ c (Proc.devRef .tc main_v1)).trans (W2_v1 m ρ c)
theorem W3_v3 : W3 m ρ c (Proc.devRef .tc main_v3) = val_main_v3 (F := Ideal) (m ((c : Thread nD τ).loc main_arg1)) :=
  (by unwritten : W3 m ρ c (Proc.devRef .tc main_v3) = W2 m ρ c (Proc.devRef .tc main_v3)).trans (W2_v3 m ρ c)
theorem W3_v26 : W3 m ρ c (Proc.devRef .tc main_v26) = val_main_v36 (F := Ideal) (m ((c : Thread nD τ).loc main_arg1)) :=
  (by unwritten : W3 m ρ c (Proc.devRef .tc main_v26) = W2 m ρ c (Proc.devRef .tc main_v26)).trans (W2_v26 m ρ c)
theorem W3_v28 : W3 m ρ c (Proc.devRef .tc main_v28) = val_main_v50 (F := Ideal) (m ((c : Thread nD τ).loc main_arg1)) :=
  (by unwritten : W3 m ρ c (Proc.devRef .tc main_v28) = W2 m ρ c (Proc.devRef .tc main_v28)).trans (W2_v28 m ρ c)
theorem W3_arg6 : W3 m ρ c (Proc.devRef .tc main_arg6) = (m ((c : Thread nD τ).loc main_arg6)) :=
  (by unwritten : W3 m ρ c (Proc.devRef .tc main_arg6) = W2 m ρ c (Proc.devRef .tc main_arg6)).trans (W2_arg6 m ρ c)
theorem W3_arg7 : W3 m ρ c (Proc.devRef .tc main_arg7) = (m ((c : Thread nD τ).loc main_arg7)) :=
  (by unwritten : W3 m ρ c (Proc.devRef .tc main_arg7) = W2 m ρ c (Proc.devRef .tc main_arg7)).trans (W2_arg7 m ρ c)
theorem W3_arg8 : W3 m ρ c (Proc.devRef .tc main_arg8) = (m ((c : Thread nD τ).loc main_arg8)) :=
  (by unwritten : W3 m ρ c (Proc.devRef .tc main_arg8) = W2 m ρ c (Proc.devRef .tc main_arg8)).trans (W2_arg8 m ρ c)
theorem W3_arg9 : W3 m ρ c (Proc.devRef .tc main_arg9) = (m ((c : Thread nD τ).loc main_arg9)) :=
  (by unwritten : W3 m ρ c (Proc.devRef .tc main_arg9) = W2 m ρ c (Proc.devRef .tc main_arg9)).trans (W2_arg9 m ρ c)

/-! ## The second region: the decoder's product -/

theorem W4_v57 : W4 m ρ c (Proc.devRef .tc main_v57) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W4 m ρ c (Proc.devRef .tc main_v57) = (dat1 (V3 m ρ) c).arrAt 2 cfg1.N from W4_arr m ρ c 2, Products.arr1 (V3 m ρ) c]
  show matProd (W3 m ρ c (Proc.devRef .tc main_v56)) (W3 m ρ c (Proc.devRef .tc main_arg6)) = _
  rw [W3_v56, W3_arg6]
  unfold val_main_v57
  exact (hostDot_eq_matProd _ rfl rfl rfl rfl rfl rfl none _ _).symm

theorem W4_v1 : W4 m ρ c (Proc.devRef .tc main_v1) = val_main_v1 (F := Ideal) (m ((c : Thread nD τ).loc main_arg1)) :=
  (W4_of_ne m ρ c main_v1 (by decide)).trans (W3_v1 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_v26 : W4 m ρ c (Proc.devRef .tc main_v26) = val_main_v36 (F := Ideal) (m ((c : Thread nD τ).loc main_arg1)) :=
  (W4_of_ne m ρ c main_v26 (by decide)).trans (W3_v26 m ρ c)
theorem W4_v28 : W4 m ρ c (Proc.devRef .tc main_v28) = val_main_v50 (F := Ideal) (m ((c : Thread nD τ).loc main_arg1)) :=
  (W4_of_ne m ρ c main_v28 (by decide)).trans (W3_v28 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg9 : W4 m ρ c (Proc.devRef .tc main_arg9) = (m ((c : Thread nD τ).loc main_arg9)) :=
  (W4_of_ne m ρ c main_arg9 (by decide)).trans (W3_arg9 m ρ c)

/-! ## The decoder's aggregation, with the coefficients the reference computes again, then the rectifier -/

theorem W5_v75 : W5 m ρ c (Proc.devRef .tc main_v75) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v75) = _
  after_results_simp
  rw [W4_v57, W4_v1, W4_v3, W4_v26, W4_v28, W4_arg7, coef_eq, self_eq]
  rfl

theorem W5_arg8 : W5 m ρ c (Proc.devRef .tc main_arg8) = (m ((c : Thread nD τ).loc main_arg8)) :=
  (by unwritten : W5 m ρ c (Proc.devRef .tc main_arg8) = W4 m ρ c (Proc.devRef .tc main_arg8)).trans (W4_arg8 m ρ c)
theorem W5_arg9 : W5 m ρ c (Proc.devRef .tc main_arg9) = (m ((c : Thread nD τ).loc main_arg9)) :=
  (by unwritten : W5 m ρ c (Proc.devRef .tc main_arg9) = W4 m ρ c (Proc.devRef .tc main_arg9)).trans (W4_arg9 m ρ c)

theorem W6_v76 : W6 m ρ c (Proc.devRef .tc main_v76) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h5 := W5_v75 m ρ c
  show StableHlo.after hostOps2_1 (W5 m ρ c) (Proc.devRef .tc main_v76) = _
  generalize W5 m ρ c = W at h5 ⊢
  after_results_simp
  simp only [Cert.LibTRefRoundTrip.ofBuf_toBuf]
  rw [h5]
  unfold val_main_v94
  generalize val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = X
  -- both sides are the maximum of X with the zero array; the kernel's passes through the called function's
  -- buffers, and writing a value to a buffer of its own type and reading it back changes nothing
  have hz : broadcastInDim S50000x256 ![] bcast_S_S50000x256 (constant (F := Ideal) S_ FTy.f32 0#32) = val_main_call0_v0 (F := Ideal) := by
    unfold val_main_call0_v0 val_main_call0_cst
    rfl
  rw [← hz]
  refine eq_of_heq (HEq.trans (cast_heq _ _) (heq_of_eq ?_))
  exact congrArg (fun t => maximumf t _) (eq_of_heq (cast_heq _ X))

theorem W6_arg8 : W6 m ρ c (Proc.devRef .tc main_arg8) = (m ((c : Thread nD τ).loc main_arg8)) :=
  (by unwritten : W6 m ρ c (Proc.devRef .tc main_arg8) = W5 m ρ c (Proc.devRef .tc main_arg8)).trans (W5_arg8 m ρ c)
theorem W6_arg9 : W6 m ρ c (Proc.devRef .tc main_arg9) = (m ((c : Thread nD τ).loc main_arg9)) :=
  (by unwritten : W6 m ρ c (Proc.devRef .tc main_arg9) = W5 m ρ c (Proc.devRef .tc main_arg9)).trans (W5_arg9 m ρ c)

/-! ## The third region: the final linear layer's product, then its bias -/

theorem W7_v77 : W7 m ρ c (Proc.devRef .tc main_v77) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W7 m ρ c (Proc.devRef .tc main_v77) = (dat2 (V6 m ρ) c).arrAt 2 cfg2.N from W7_arr m ρ c 2, Products.arr2 (V6 m ρ) c]
  show matProd (W6 m ρ c (Proc.devRef .tc main_v76)) (W6 m ρ c (Proc.devRef .tc main_arg8)) = _
  rw [W6_v76, W6_arg8]
  unfold val_main_v95
  exact (hostDot_eq_matProd _ rfl rfl rfl rfl rfl rfl none _ _).symm

theorem W7_arg9 : W7 m ρ c (Proc.devRef .tc main_arg9) = (m ((c : Thread nD τ).loc main_arg9)) :=
  (W7_of_ne m ρ c main_arg9 (by decide)).trans (W6_arg9 m ρ c)

/-- The result buffer at the last boundary is the reference's result stage of the launch arguments. -/
theorem W8_v80 : W8 m ρ c (Proc.devRef .tc main_v80) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W7 m ρ c) (Proc.devRef .tc main_v80) = _
  after_results_simp
  rw [W7_v77, W7_arg9]
  rfl

end Cert.KernelIdeal.Stages

end
-- ==== Proof.lean ====
/-
  A two-layer graph convolution with a masked input and a final linear layer, against its reference.

  Both programs read an edge list (sources and destinations of 800000 edges over 50000 nodes), compute each node's
  degree with a self-loop by a scatter-add of ones, its inverse square root, the edge coefficients (the product of
  the two endpoints' inverse square roots) and the self-loop coefficients (its square); replace the rows of the
  input named by the mask indices with the mask token; and then, twice, multiply by a weight matrix, gather the
  products' rows along the edges, scale them by the edge coefficients, scatter-add them at the destinations, add
  the self-loop term and the bias — the second time followed by the rectifier — and finally multiply by the last
  weight matrix and add its bias. They return that array with the input and the mask indices unchanged.

  The kernel computes each of the three matrix products in a region, 2000 rows at a grid point, on operands whose
  change of float format is the identity on extended reals, into a zero accumulator; the reference computes each as
  one host product. A row of a product depends on the same row of the left factor only, so the 25 row blocks are
  the whole product, and the accumulator contributes nothing: the products agree entry by entry as sums over the
  contracted axis, with no condition on the operands. Every other operation is the same operation of the same
  operands in both programs (the reference computes the coefficients once per layer, from the same edge list), so
  the results are one function of the arguments, and finiteness of the inputs is not used.

  Proof/RegionProducts.lean: a region's result array is the whole product of its operand arrays.
  Proof/KernelRun.lean: the kernel's run ends with its result buffer at the last boundary's contents.
  Proof/Boundaries.lean: boundary by boundary, those contents are the reference's stages of the arguments.
  Here: the frames, and the two runs stated with one result.
-/
import proofs.«107475_j17093969838150_1_alg».proof.Defs
import proofs.«107475_j17093969838150_1_alg».proof.Proof.Gen.Kernel
import proofs.«107475_j17093969838150_1_alg».proof.Proof.Gen.Kernel.Skeleton
import proofs.«107475_j17093969838150_1_alg».proof.Proof.Gen.Kernel.Launch
import proofs.«107475_j17093969838150_1_alg».proof.Proof.Gen.Kernel.Points
import proofs.«107475_j17093969838150_1_alg».proof.Proof.Gen.Kernel.Frame
import proofs.«107475_j17093969838150_1_alg».proof.Proof.Gen.KernelIdeal
import proofs.«107475_j17093969838150_1_alg».proof.Proof.Gen.KernelIdeal.Skeleton
import proofs.«107475_j17093969838150_1_alg».proof.Proof.Gen.KernelIdeal.Launch
import proofs.«107475_j17093969838150_1_alg».proof.Proof.Gen.KernelIdeal.Points
import proofs.«107475_j17093969838150_1_alg».proof.Proof.Gen.KernelIdeal.Frame
import proofs.«107475_j17093969838150_1_alg».proof.Proof.Gen.ReferenceIdeal
import proofs.«107475_j17093969838150_1_alg».proof.Proof.Gen.ReferenceIdeal.Run
import proofs.«107475_j17093969838150_1_alg».proof.Proof.Gen.ReferenceIdeal.Read
import proofs.«107475_j17093969838150_1_alg».proof.Proof.Gen.Pre_finite_inputs
import proofs.«107475_j17093969838150_1_alg».proof.Proof.KernelRun
import proofs.«107475_j17093969838150_1_alg».proof.Proof.Boundaries
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- From memories that agree on the arguments both programs end with their first result at the reference's result
    stage of the arguments, and with the input and the mask indices, which they return unchanged. -/
theorem algebraic : Cert.algebraic_KernelIdeal_ReferenceIdeal := by
  intro m ρ m' ρ' _ hagree
  refine ⟨fun c => Cert.ReferenceIdeal.Read.val_main_v98 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
      fun c => m ((c.tc : Thread Cert.KernelIdeal.nD Cert.KernelIdeal.τ).loc Cert.KernelIdeal.main_arg0),
      fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.KernelIdeal.Stages.W8_v80 m ρ c), (h c).2.1, (h c).2.2.2.1, (h c).2⟩)
      (Cert.KernelIdeal.Run.run_result (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9⟩ := hagree c
    refine ⟨(h c).1.trans ?_, (h c).2.1.trans e0, (h c).2.2.1.trans e2, (h c).2.2.2⟩
    rw [Cert.ReferenceIdeal.Read.val_main_v98_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
